-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x256 : Shape := ⟨2, ![1024, 256]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 14
  | .vmem => 9
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .bf16⟩
  | .hbm, ⟨3, _⟩ => ⟨S8192x256, .bf16⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x256, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S1x8192, .f32⟩
  | .hbm, ⟨13, _⟩ => ⟨S8192x8192, .f32⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S1024x1, .f32⟩
  | .local _ .vmem, ⟨4, _⟩ => ⟨S1024x1, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  reducesTo_S8192x256_S8192_d1 : S8192x256.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  h_S1024x256 : 0 < S1024x256.numel
  shapeCasts_S1024x256_S1024x256 : S1024x256.ShapeCasts S1024x256
  inb_S1024x256_S1024x256_0_0 : ∀ a, (![0, 0] : Fin 2 → Nat) a + S1024x256.size a ≤ S1024x256.size a
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x256_S1024x256_S1024x1024_1_1_0_0_n_n_wf : DotDims.WF S1024x256 S1024x256 S1024x1024 [1] [1] [0] [0] [] []
  hrank0 : 0 < grid0.rank
  k0_mult1_dvd : ∀ i : grid0.Coords, 128 ∣ (k0_mult1 i).toNat
  k0_off1_inb : ∀ i : grid0.Coords, ∀ a, (k0_off1 i) a + S1024x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 22
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.Spec.lean ====
import Mathlib
import Idealize.ShloMosaic.PureOps.Ideal
import Idealize.ShloMosaic.PureOps.Ideal.Laws
import Idealize.ShloMosaic.Lib.ValueIdx

/-!
# The Gaussian (RBF) kernel matrix through the expansion of the squared distance

For two matrices `x`, `y` of 8192 rows of 256 numbers, entry `(r, s)` of the result is
`exp (γ · d(r, s))` with `d(r, s) = (‖x_r‖² + ‖y_s‖²) − 2 · ⟨x_r, y_s⟩` and `γ` a fixed negative literal.
One program clamps `d` at zero from below before the exponential and the other does not. Over real
numbers `d(r, s) = ∑ₖ (x_r k − y_s k)²` is a sum of squares, hence nonnegative, and the clamp is the
identity. On the extended reals the identity needs every entry of `x` and `y` to be a real number (with an
infinite entry `d` can be `−∞`), which is why the statement below asks for it.
-/

noncomputable section

namespace Cert.Spec

open Idealize.ShloMosaic Idealize.ShloMosaic.ValueIdx

/-- The single-precision literal `2.0` denotes the real number 2. -/
theorem ofBits_two : Ideal.ofBits .f32 0x40000000#32 = ((2 : ℝ) : EReal) := by
  simp [Ideal.ofBits, Ideal.ieee, -EReal.coe_mul]; norm_num

/-- The coercion of the reals into the extended reals commutes with finite sums. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- For real vectors `‖x‖² + ‖y‖² − 2⟨x, y⟩ = ∑ (x − y)² ≥ 0`: the maximum with zero is the value itself.
    The two leading zeros are the starting values of the two sums of squares. -/
theorem clamp_sqdist {ι : Type*} [Fintype ι] (x y : ι → EReal)
    (hx : ∀ k, ∃ r : ℝ, x k = (r : EReal)) (hy : ∀ k, ∃ r : ℝ, y k = (r : EReal)) :
    max ((((0 : EReal) + ∑ k, x k * x k) + ((0 : EReal) + ∑ k, y k * y k)) - ((2 : ℝ) : EReal) * ∑ k, x k * y k) 0
      = (((0 : EReal) + ∑ k, x k * x k) + ((0 : EReal) + ∑ k, y k * y k)) - ((2 : ℝ) : EReal) * ∑ k, x k * y k := by
  choose f hf using hx
  choose g hg using hy
  obtain rfl : x = fun k => (f k : EReal) := funext hf
  obtain rfl : y = fun k => (g k : EReal) := funext hg
  simp only [zero_add, ← EReal.coe_mul, ← coe_sum, ← EReal.coe_add, ← EReal.coe_sub]
  apply max_eq_left
  rw [← EReal.coe_zero, EReal.coe_le_coe_iff]
  have h : ∑ k, f k * f k + ∑ k, g k * g k - 2 * ∑ k, f k * g k = ∑ k, (f k - g k) ^ 2 := by
    rw [Finset.mul_sum, ← Finset.sum_add_distrib, ← Finset.sum_sub_distrib]
    exact Finset.sum_congr rfl fun k _ => by ring
  rw [h]
  exact Finset.sum_nonneg fun k _ => sq_nonneg _

/-- The shape of the two arguments: 8192 rows of 256 numbers. -/
abbrev SIn : Shape := ⟨2, ![8192, 256]⟩
/-- The shape of the result: one entry per pair of rows. -/
abbrev SOut : Shape := ⟨2, ![8192, 8192]⟩

/-- The squared norm of row `r`, summed from the literal zero. -/
def sqnorm (x : SIn.Idx → EReal) (r : Fin 8192) : EReal :=
  Ideal.ofBits .f32 0x00000000#32 + ∑ k : Fin 256, x (ix2 r k) * x (ix2 r k)

/-- The inner product of row `r` of `x` with row `s` of `y`. -/
def inner (x y : SIn.Idx → EReal) (r s : Fin 8192) : EReal :=
  ∑ k : Fin 256, x (ix2 r k) * y (ix2 s k)

/-- The squared distance between row `r` of `x` and row `s` of `y`, in expanded form. -/
def dist2 (x y : SIn.Idx → EReal) (r s : Fin 8192) : EReal :=
  (sqnorm x r + sqnorm y s) - Ideal.ofBits .f32 0x40000000#32 * inner x y r s

/-- Entry `(r, s)` of the kernel matrix. -/
def rbfAt (x y : SIn.Idx → EReal) (r s : Fin 8192) : EReal :=
  Ideal.exp (Ideal.ofBits .f32 0xBBA3D70A#32 * dist2 x y r s)

/-- Entry `(r, s)` with the squared distance clamped at zero from below first. -/
def rbfClampedAt (x y : SIn.Idx → EReal) (r s : Fin 8192) : EReal :=
  Ideal.exp (Ideal.ofBits .f32 0xBBA3D70A#32 * max (dist2 x y r s) (Ideal.ofBits .f32 0x00000000#32))

/-- The kernel matrix as one function of the two arguments. -/
def rbf (x y : SIn.Idx → EReal) : SOut.Idx → EReal :=
  fun i => rbfAt x y ⟨(i 0).val, (i 0).isLt⟩ ⟨(i 1).val, (i 1).isLt⟩

/-- The same with the clamp. -/
def rbfClamped (x y : SIn.Idx → EReal) : SOut.Idx → EReal :=
  fun i => rbfClampedAt x y ⟨(i 0).val, (i 0).isLt⟩ ⟨(i 1).val, (i 1).isLt⟩

theorem rbf_ix2 (x y : SIn.Idx → EReal) (r s : Fin 8192) : rbf x y (ix2 r s) = rbfAt x y r s := rfl

theorem rbfClamped_ix2 (x y : SIn.Idx → EReal) (r s : Fin 8192) :
    rbfClamped x y (ix2 r s) = rbfClampedAt x y r s := rfl

/-- On matrices of real numbers the clamp changes nothing, entry by entry. -/
theorem rbfClampedAt_eq (x y : SIn.Idx → EReal)
    (hx : ∀ i, ∃ r : ℝ, x i = (r : EReal)) (hy : ∀ i, ∃ r : ℝ, y i = (r : EReal)) (r s : Fin 8192) :
    rbfClampedAt x y r s = rbfAt x y r s := by
  unfold rbfClampedAt rbfAt dist2 sqnorm inner
  rw [Ideal.ofBits_zero_f32, ofBits_two,
    clamp_sqdist (fun k : Fin 256 => x (ix2 r k)) (fun k : Fin 256 => y (ix2 s k)) (fun k => hx _) (fun k => hy _)]

/-- So the two whole-array functions agree on matrices of real numbers. -/
theorem rbfClamped_eq_rbf (x y : SIn.Idx → EReal)
    (hx : ∀ i, ∃ r : ℝ, x i = (r : EReal)) (hy : ∀ i, ∃ r : ℝ, y i = (r : EReal)) :
    rbfClamped x y = rbf x y :=
  funext fun i => rbfClampedAt_eq x y hx hy _ _

end Cert.Spec

end
-- ==== Proof.Finite.lean ====
import proofs.«117851_j65481071401189_2_alg».proof.Pre_finite_inputs
import proofs.«117851_j65481071401189_2_alg».proof.Proof.Gen.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

/-!
# What the precondition says: every entry of both arguments is a real number

The precondition compares the absolute value of every entry of each argument with `+∞` and takes the
conjunction of all the comparisons. On the extended reals `|a| < +∞` fails exactly at `a = ±∞`, so an
argument that passes has only real entries.
-/

noncomputable section

namespace Cert.Finite

open Idealize.ShloMosaic

instance : Subsingleton Cert.Pre_finite_inputs.S_.Idx := ⟨fun _ _ => funext fun d => d.elim0⟩

/-- The pattern with all exponent bits set and a zero fraction denotes `+∞`. -/
theorem ofBits_inf : Ideal.ofBits .f32 0x7F800000#32 = (⊤ : EReal) := by
  simp [Ideal.ofBits, Ideal.ieee]

/-- An extended real whose absolute value is strictly below `+∞` is a real number. -/
theorem real_of_abs_lt (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | top => simp [Ideal.cmp] at h
  | coe r => exact ⟨r, rfl⟩

/-- Both arguments of a pair that satisfies the precondition have only real entries. -/
theorem real_of_pre [Cert.Pre_finite_inputs.Facts]
    (x y : FVec Ideal Cert.Pre_finite_inputs.S8192x256 .f32)
    (h : Cert.Pre_finite_inputs.fn (F := Ideal) x y = fun _ => 1#1) :
    (∀ i, ∃ r : ℝ, x i = (r : EReal)) ∧ (∀ i, ∃ r : ℝ, y i = (r : EReal)) := by
  have h0 := congrFun h ValueIdx.ix0
  dsimp only [Cert.Pre_finite_inputs.fn] at h0
  obtain ⟨hx, hy⟩ := IntOp.andi_eq_one.mp h0
  refine ⟨fun i => ?_, fun i => ?_⟩
  · exact real_of_abs_lt (x i) (Host.reduce_andi_all _ _ _ _ _ hx i)
  · exact real_of_abs_lt (y i) (Host.reduce_andi_all _ _ _ _ _ hy i)

end Cert.Finite

end
-- ==== Proof.KernelPiece.lean ====
import proofs.«117851_j65481071401189_2_alg».proof.Proof.Gen.KernelIdeal.Frame
import Idealize.ShloMosaic.Lib.Pipeline.Value
import Idealize.ShloMosaic.Lib.Tactic

/-!
# What one grid point leaves in its output tile

At grid point `(i, j)` the body reads its tile of `x` (1024 rows), the whole resident `y`, the column of
squared norms of its rows of `x` and the row of squared norms of its rows of `y`. Out of the resident `y` it
takes the 1024 rows starting at row `1024 · j`. It stores one value over the whole output tile: the body's
arithmetic applied to those four pieces.
-/

noncomputable section

open Idealize.ShloMosaic Idealize.ShloMosaic.TcCoe Idealize.SL.Sem
open Idealize.ShloMosaic.Pipeline (Dat)

namespace Cert.KernelIdeal.Piece

open Cert.KernelIdeal Cert.KernelIdeal.Gen

variable {F : FTy → Type} [FloatOps F]

theorem hz : (![0, 0] : Fin 2 → Nat) = fun _ => 0 := funext fun a => by fin_cases a <;> rfl

/-- The 1024 rows of the resident matrix that the point with coordinates `i` multiplies against: those from
    row `1024 · i₁` on. -/
def ytile (i : grid0.Coords) (x1 : Vec F S8192x256 .bf16) : Vec F S1024x256 .bf16 :=
  View.ld x1 (Rect.unit (s := S8192x256) (k0_off1 i) S1024x256.size (k0_off1_inb i))

/-- The output tile after the body: the body's arithmetic of the tile of `x`, the selected rows of `y`, and the
    two blocks of squared norms. -/
theorem out_piece (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole)
    (x0 : Vec F S1024x256 .bf16) (x1 : Vec F S8192x256 .bf16) (x2 : Vec F S1024x1 .f32) (x3 : Vec F S1x1024 .f32) :
    out0_A_4 c i arg2 harg2 arg3 harg3 arg4 harg4 arg5 harg5 arg6 harg6 x0 x1 x2 x3 = k0_pay1 (ytile i x1) x0 x2 x3 := by
  unfold out0_A_4
  rw [View.read_writes_eq_canon _ _ _ (cover0_A_4 c i arg2 harg2 arg3 harg3 arg4 harg4 arg5 harg5 arg6 harg6 x0 x1 x2 x3)]
  unfold kernelRun0_A
  dsimp only
  rw [View.canon_unit_zero hz]
  simp only [View.readAt_eq_ld, harg2.read_unread, harg3.read_unread, harg4.read_unread, harg5.read_unread,
    View.ld_unit_zero (S := S1024x256) hz, View.ld_unit_zero (S := S1024x1) hz, View.ld_unit_zero (S := S1x1024) hz]
  rfl

end Cert.KernelIdeal.Piece

end
-- ==== Proof.Layout.lean ====
import Idealize.ShloMosaic.PureOps.Ideal
import Idealize.ShloMosaic.PureOps.Ideal.Laws
import Idealize.ShloMosaic.Lib.ValueIdx
import Idealize.ShloMosaic.Lib.Pipeline.Value

/-!
# Reading the layout operations and the row sums at an index

The squared norms travel as a column `[8192, 1]` and as a row `[1, 8192]`; inside one tile they are spread
over a `[1024, 1024]` block. Each of these operations only moves numbers: this module says from where.
A sum along the second axis of an `[8192, 256]` array, read at row `r`, is the initial value plus the sum of
the 256 entries of that row.
-/

noncomputable section

namespace Cert.Layout

open Idealize.ShloMosaic Idealize.ShloMosaic.ValueIdx

abbrev SMat : Shape := ⟨2, ![8192, 256]⟩
abbrev SVec : Shape := ⟨1, ![8192]⟩
abbrev SCol : Shape := ⟨2, ![8192, 1]⟩
abbrev SRow : Shape := ⟨2, ![1, 8192]⟩
abbrev S0 : Shape := ⟨0, ![]⟩
abbrev BCol : Shape := ⟨2, ![1024, 1]⟩
abbrev BRow : Shape := ⟨2, ![1, 1024]⟩
abbrev BOut : Shape := ⟨2, ![1024, 1024]⟩

variable {α : Type}

/-- A vector laid out as a column: entry `(r, 0)` is entry `r`. -/
theorem col_apply (v : SVec.Idx → α) (hb : SVec.BroadcastsInDim SCol (![0] : Fin 1 → Fin SCol.rank)) (r : Fin 8192) :
    broadcastInDim SCol ![0] hb v (ix2 r (0 : Fin 1)) = v (ix1 r) :=
  broadcastInDim_apply _ hb v (ix2 r (0 : Fin 1)) (ix1 r) (fun a => match a with
    | ⟨0, _⟩ => by show r.val = if (8192 : Nat) = 1 then 0 else r.val; rw [if_neg (by decide)])

/-- The column turned into a row: entry `(0, s)` of the transpose is entry `(s, 0)`. -/
theorem row_apply (w : SCol.Idx → α) (ht : SCol.Transposes [1, 0] SRow) (s : Fin 8192) :
    transpose SRow [1, 0] w ht (ix2 (0 : Fin 1) s) = w (ix2 s (0 : Fin 1)) :=
  transpose_apply [1, 0] w ht (ix2 (0 : Fin 1) s) (ix2 s (0 : Fin 1)) (fun b => match b with
    | ⟨0, _⟩ => rfl
    | ⟨1, _⟩ => rfl)

/-- A column block spread along the rows of a tile: entry `(p, q)` is entry `(p, 0)` of the column. -/
theorem bcol_apply (v : BCol.Idx → α) (h : BCol.Broadcasts BOut) (p q : Fin 1024) :
    broadcastTo BOut v h (ix2 p q) = v (ix2 p (0 : Fin 1)) :=
  broadcastTo_apply v h (ix2 p q) (ix2 p (0 : Fin 1)) (fun a => match a with
    | ⟨0, _⟩ => by show p.val = if (1024 : Nat) = 1 then 0 else p.val; rw [if_neg (by decide)]
    | ⟨1, _⟩ => by show 0 = if (1 : Nat) = 1 then 0 else q.val; rw [if_pos rfl])

/-- A row block spread along the columns of a tile: entry `(p, q)` is entry `(0, q)` of the row. -/
theorem brow_apply (v : BRow.Idx → α) (h : BRow.Broadcasts BOut) (p q : Fin 1024) :
    broadcastTo BOut v h (ix2 p q) = v (ix2 (0 : Fin 1) q) :=
  broadcastTo_apply v h (ix2 p q) (ix2 (0 : Fin 1) q) (fun a => match a with
    | ⟨0, _⟩ => by show 0 = if (1 : Nat) = 1 then 0 else p.val; rw [if_pos rfl]
    | ⟨1, _⟩ => by show q.val = if (1024 : Nat) = 1 then 0 else q.val; rw [if_neg (by decide)])

/-- The host's sum along the second axis, on the extended reals, read at row `r`. -/
theorem rowSum_apply (y0 : SMat.Idx → EReal) (init : S0.Idx → EReal) (h' : SMat.ReducesTo [1] SVec)
    (hu : 0 < S0.numel) (r : Fin 8192) :
    Host.reduceAdd (F := Ideal) (φ := .f32) y0 init h' hu (ix1 r)
      = init (Shape.Idx.first hu) + ∑ k : Fin 256, y0 (ix2 r k) := by
  simp only [Host.reduceAdd, Ideal.hostReduceAdd_def]
  rw [Ideal.hostReduceAdd_single h' (by decide)]
  refine congrArg (_ + ·) (Finset.sum_congr rfl fun k _ => ?_)
  exact congrArg y0 (funext fun a => Fin.ext (by match a with | ⟨0, _⟩ => rfl | ⟨1, _⟩ => rfl))

end Cert.Layout

end
-- ==== Proof.KernelPay.lean ====
import proofs.«117851_j65481071401189_2_alg».proof.Proof.Gen.KernelIdeal.Skeleton
import proofs.«117851_j65481071401189_2_alg».proof.Proof.Layout
import Idealize.ShloMosaic.PureOps.Ideal.Laws
import Idealize.ShloMosaic.Lib.ValueIdx
import Idealize.ShloMosaic.Lib.Pipeline.Value

/-!
# The body's arithmetic at one entry of the tile, on the extended reals

With `a` the tile of `x` (1024 × 256), `b` the selected rows of `y` (1024 × 256), `u` the column of squared
norms of the rows of `a` and `w` the row of squared norms of the rows of `b`, entry `(p, q)` of the stored
tile is `exp (γ · max ((u p + w q) − 2 · ∑ₖ a p k · b q k, 0))`: the matrix product contracts the second axis
of both factors, into a zero accumulator, so its entry is the plain inner product of row `p` of `a` with row
`q` of `b`; the changes of number format are the identity on the extended reals.
-/

noncomputable section

namespace Cert.KernelIdeal.Pay

open Cert.KernelIdeal Cert.KernelIdeal.Gen Idealize.ShloMosaic Idealize.ShloMosaic.ValueIdx

/-- The product's dimension record: both factors contract their second axis. -/
abbrev D : DotDims S1024x256 S1024x256 S1024x1024 := dot_S1024x256_S1024x256_S1024x1024_1_1_0_0_n_n

theorem lhs0 (i : S1024x1024.Idx) (q : D.contr.Idx) : (D.lhsIdx i q 0).val = (i 0).val := by
  unfold DotDims.lhsIdx
  rw [dif_neg (show ¬(0 : Fin S1024x256.rank) ∈ D.lhsBatch by decide), dif_pos (show (0 : Fin S1024x256.rank) ∈ D.lhsNonContracting by decide)]
  rfl
theorem lhs1 (i : S1024x1024.Idx) (q : D.contr.Idx) : (D.lhsIdx i q 1).val = (q ⟨0, by decide⟩).val :=
  D.lhsIdx_val_of_single rfl i q
theorem rhs0 (i : S1024x1024.Idx) (q : D.contr.Idx) : (D.rhsIdx i q 0).val = (i 1).val := by
  unfold DotDims.rhsIdx
  rw [dif_neg (show ¬(0 : Fin S1024x256.rank) ∈ D.rhsBatch by decide), dif_pos (show (0 : Fin S1024x256.rank) ∈ D.rhsNonContracting by decide)]
  rfl
theorem rhs1 (i : S1024x1024.Idx) (q : D.contr.Idx) : (D.rhsIdx i q 1).val = (q ⟨0, by decide⟩).val :=
  D.rhsIdx_val_of_single rfl i q

/-- Entry `(p, q)` of the product into a zero accumulator is the inner product of row `p` of the left factor
    with row `q` of the right factor. -/
theorem matmul_at (l r : FVec Ideal S1024x256 .bf16) (p q : Fin 1024) :
    matmul (F := Ideal) D none l r (constant (F := Ideal) S1024x1024 .f32 0x00000000#32) (ix2 p q)
      = ∑ k : Fin 256, l (ix2 p k) * r (ix2 q k) := by
  simp only [matmul]
  rw [Ideal.matmul_constant_zero_apply, ← Equiv.sum_comp (ValueIdx.contrEquiv1 D 256 rfl rfl).symm]
  refine Finset.sum_congr rfl fun k _ => ?_
  have hk := ValueIdx.contrEquiv1_symm_val D 256 rfl rfl k
  have el : D.lhsIdx (ix2 p q) ((ValueIdx.contrEquiv1 D 256 rfl rfl).symm k) = ix2 p k := funext fun a => Fin.ext (by
    match a with
    | ⟨0, _⟩ => exact lhs0 _ _
    | ⟨1, _⟩ => exact (lhs1 _ _).trans hk)
  have er : D.rhsIdx (ix2 p q) ((ValueIdx.contrEquiv1 D 256 rfl rfl).symm k) = ix2 q k := funext fun a => Fin.ext (by
    match a with
    | ⟨0, _⟩ => exact rhs0 _ _
    | ⟨1, _⟩ => exact (rhs1 _ _).trans hk)
  rw [el, er]

/-- The stored tile at entry `(p, q)`. -/
theorem pay_apply (b a : FVec Ideal S1024x256 .bf16) (u : FVec Ideal S1024x1 .f32) (w : FVec Ideal S1x1024 .f32)
    (p q : Fin 1024) :
    k0_pay1 (F := Ideal) b a u w (ix2 p q)
      = Ideal.exp (Ideal.ofBits .f32 0xBBA3D70A#32
          * max ((u (ix2 p (0 : Fin 1)) + w (ix2 (0 : Fin 1) q))
              - Ideal.ofBits .f32 0x40000000#32 * ∑ k : Fin 256, a (ix2 p k) * b (ix2 q k))
            (Ideal.ofBits .f32 0x00000000#32)) := by
  unfold k0_pay1
  simp only [shapeCast_self]
  show Ideal.exp (Ideal.ofBits .f32 0xBBA3D70A#32
      * max ((broadcastTo S1024x1024 u broadcasts_S1024x1_S1024x1024 (ix2 p q)
            + broadcastTo S1024x1024 w broadcasts_S1x1024_S1024x1024 (ix2 p q))
          - Ideal.ofBits .f32 0x40000000#32
            * matmul (F := Ideal) D none a b (constant (F := Ideal) S1024x1024 .f32 0x00000000#32) (ix2 p q))
        (Ideal.ofBits .f32 0x00000000#32)) = _
  rw [Layout.bcol_apply, Layout.brow_apply, matmul_at]

end Cert.KernelIdeal.Pay

end
-- ==== Proof.KernelBlocks.lean ====
import proofs.«117851_j65481071401189_2_alg».proof.Proof.Gen.KernelIdeal.Frame
import proofs.«117851_j65481071401189_2_alg».proof.Proof.Spec
import proofs.«117851_j65481071401189_2_alg».proof.Proof.Layout
import proofs.«117851_j65481071401189_2_alg».proof.Proof.KernelPiece
import Idealize.ShloMosaic.Lib.StableHlo.Run
import Idealize.ShloMosaic.Lib.Pipeline.Value
import Idealize.ShloMosaic.Lib.ValueIdx

/-!
# What each window's block holds at a grid point, in terms of the two arguments

Before the grid starts the host has prepared four arrays from the arguments `x` and `y`: `x` and `y`
themselves in a narrower number format (the same extended reals), the column of the squared norms of the
rows of `x`, and the row of the squared norms of the rows of `y`. At the grid point with block indices
`(I, J)` the tile of `x` holds rows `1024·I + p`, the rows taken from the resident `y` are rows
`1024·J + q`, and the two blocks of squared norms hold the norms of exactly those rows.
-/

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The first argument as launched, on core `c`. -/
abbrev X (c : Dev nD) : S8192x256.Idx → EReal := m ((c : Thread nD τ).loc main_arg0)
/-- The second argument as launched, on core `c`. -/
abbrev Y (c : Dev nD) : S8192x256.Idx → EReal := m ((c : Thread nD τ).loc main_arg1)

/-! ## The arrays the host prepared, read at an index -/

theorem V_v0_apply (c : Dev nD) (i : S8192x256.Idx) : (V m c main_v0 : S8192x256.Idx → EReal) i = X m c i := by
  have e : (V m c main_v0 : S8192x256.Idx → EReal) = truncf (F := Ideal) .bf16 (X m c) bitsLt_bf16_f32 := by
    dsimp only [V, hostOps0]; after_results
  rw [e]; rfl

theorem V_v1_apply (c : Dev nD) (i : S8192x256.Idx) : (V m c main_v1 : S8192x256.Idx → EReal) i = Y m c i := by
  have e : (V m c main_v1 : S8192x256.Idx → EReal) = truncf (F := Ideal) .bf16 (Y m c) bitsLt_bf16_f32 := by
    dsimp only [V, hostOps0]; after_results
  rw [e]; rfl

/-- The column of squared norms of the rows of `x`. -/
theorem V_v4_apply (c : Dev nD) (r : Fin 8192) :
    (V m c main_v4 : S8192x1.Idx → EReal) (ix2 r (0 : Fin 1)) = Spec.sqnorm (X m c) r := by
  have e : (V m c main_v4 : S8192x1.Idx → EReal)
      = broadcastInDim S8192x1 ![0] bcast_S8192_S8192x1_0
          (Host.reduceAdd (F := Ideal) (mulf (F := Ideal) (X m c) (X m c)) (constant (F := Ideal) S_ .f32 0x00000000#32)
            reducesTo_S8192x256_S8192_d1 h_S_) := by
    dsimp only [V, hostOps0]; after_results
  rw [e, Layout.col_apply, Layout.rowSum_apply]
  rfl

/-- The row of squared norms of the rows of `y`. -/
theorem V_v8_apply (c : Dev nD) (s : Fin 8192) :
    (V m c main_v8 : S1x8192.Idx → EReal) (ix2 (0 : Fin 1) s) = Spec.sqnorm (Y m c) s := by
  have e : (V m c main_v8 : S1x8192.Idx → EReal)
      = transpose S1x8192 [1, 0] (broadcastInDim S8192x1 ![0] bcast_S8192_S8192x1_0
          (Host.reduceAdd (F := Ideal) (mulf (F := Ideal) (Y m c) (Y m c)) (constant (F := Ideal) S_ .f32 0x00000000#32)
            reducesTo_S8192x256_S8192_d1 h_S_)) transposes_S8192x1_S1x8192_1_0 := by
    dsimp only [V, hostOps0]; after_results
  rw [e, Layout.row_apply, Layout.col_apply, Layout.rowSum_apply]
  rfl

/-! ## The blocks at a point -/

/-- Entry `(p, k)` of the tile of `x` is entry `(r, k)` of `x`, where `r` is `p` past the tile's first row. -/
theorem blk0 (c : Dev nD) (t : Fin cfg0.N) (p : Fin 1024) (k : Fin 256) (r : Fin 8192)
    (hr : r.val = win0_0.index t (0 : Fin 2) * 1024 + p.val) (h1 : win0_0.index t (1 : Fin 2) = 0) :
    (iblk m c 0 t : S1024x256.Idx → EReal) (ix2 p k) = X m c (ix2 r k) := by
  unfold iblk
  rw [View.read_apply]
  show (V m c main_v0 : S8192x256.Idx → EReal) (((cfg0.win 0).blk t).view.emb (ix2 p k)) = _
  refine (V_v0_apply m c _).trans (congrArg (X m c) (funext fun a => Fin.ext ?_))
  match a with
  | ⟨0, _⟩ => show win0_0.index t (0 : Fin 2) * 1024 + 1 * p.val = r.val; omega
  | ⟨1, _⟩ => show win0_0.index t (1 : Fin 2) * 256 + 1 * k.val = k.val; omega

/-- The resident block is the whole of `y`. -/
theorem blk1 (c : Dev nD) (t : Fin cfg0.N) (s : Fin 8192) (k : Fin 256)
    (h0 : win0_1.index t (0 : Fin 2) = 0) (h1 : win0_1.index t (1 : Fin 2) = 0) :
    (iblk m c 1 t : S8192x256.Idx → EReal) (ix2 s k) = Y m c (ix2 s k) := by
  unfold iblk
  rw [View.read_apply]
  show (V m c main_v1 : S8192x256.Idx → EReal) (((cfg0.win 1).blk t).view.emb (ix2 s k)) = _
  refine (V_v1_apply m c _).trans (congrArg (Y m c) (funext fun a => Fin.ext ?_))
  match a with
  | ⟨0, _⟩ => show win0_1.index t (0 : Fin 2) * 8192 + 1 * s.val = s.val; omega
  | ⟨1, _⟩ => show win0_1.index t (1 : Fin 2) * 256 + 1 * k.val = k.val; omega

/-- The rows selected out of a resident matrix `z`: entry `(q, k)` is entry `(s, k)` of `z`, with `s` the row
    `q` past row `1024 · i₁`. -/
theorem ytile_apply (i : grid0.Coords) (z : FVec Ideal S8192x256 .bf16) (q : Fin 1024) (k : Fin 256) (s : Fin 8192)
    (hs : s.val = 1024 * (i 1).val + q.val) :
    Piece.ytile (F := Ideal) i z (ix2 q k) = z (ix2 s k) := by
  unfold Piece.ytile
  show z ((Rect.unit (s := S8192x256) (k0_off1 i) S1024x256.size (k0_off1_inb i)).idx (ix2 q k)) = _
  refine congrArg z (funext fun a => Fin.ext ?_)
  match a with
  | ⟨0, _⟩ =>
    show k0_off1 i 0 + 1 * q.val = s.val
    rw [k0_off1_eq i]
    show 1024 * (i 1).val + 1 * q.val = s.val
    omega
  | ⟨1, _⟩ =>
    show k0_off1 i 1 + 1 * k.val = k.val
    rw [k0_off1_eq i]
    show 0 + 1 * k.val = k.val
    omega

/-- Entry `(p, 0)` of the block of squared norms of `x` is the squared norm of row `r`. -/
theorem blk2 (c : Dev nD) (t : Fin cfg0.N) (p : Fin 1024) (r : Fin 8192)
    (hr : r.val = win0_2.index t (0 : Fin 2) * 1024 + p.val) (h1 : win0_2.index t (1 : Fin 2) = 0) :
    (iblk m c 2 t : S1024x1.Idx → EReal) (ix2 p (0 : Fin 1)) = Spec.sqnorm (X m c) r := by
  unfold iblk
  rw [View.read_apply]
  show (V m c main_v4 : S8192x1.Idx → EReal) (((cfg0.win 2).blk t).view.emb (ix2 p (0 : Fin 1))) = _
  have e : ((cfg0.win 2).blk t).view.emb (ix2 p (0 : Fin 1)) = (ix2 r (0 : Fin 1) : S8192x1.Idx) :=
    funext fun a => Fin.ext (by
      match a with
      | ⟨0, _⟩ => show win0_2.index t (0 : Fin 2) * 1024 + 1 * p.val = r.val; omega
      | ⟨1, _⟩ => show win0_2.index t (1 : Fin 2) * 1 + 1 * 0 = 0; omega)
  rw [e]
  exact V_v4_apply m c r

/-- Entry `(0, q)` of the block of squared norms of `y` is the squared norm of row `s`. -/
theorem blk3 (c : Dev nD) (t : Fin cfg0.N) (q : Fin 1024) (s : Fin 8192)
    (h0 : win0_3.index t (0 : Fin 2) = 0) (hs : s.val = win0_3.index t (1 : Fin 2) * 1024 + q.val) :
    (iblk m c 3 t : S1x1024.Idx → EReal) (ix2 (0 : Fin 1) q) = Spec.sqnorm (Y m c) s := by
  unfold iblk
  rw [View.read_apply]
  show (V m c main_v8 : S1x8192.Idx → EReal) (((cfg0.win 3).blk t).view.emb (ix2 (0 : Fin 1) q)) = _
  have e : ((cfg0.win 3).blk t).view.emb (ix2 (0 : Fin 1) q) = (ix2 (0 : Fin 1) s : S1x8192.Idx) :=
    funext fun a => Fin.ext (by
      match a with
      | ⟨0, _⟩ => show win0_3.index t (0 : Fin 2) * 1 + 1 * 0 = 0; omega
      | ⟨1, _⟩ => show win0_3.index t (1 : Fin 2) * 1024 + 1 * q.val = s.val; omega)
  rw [e]
  exact V_v8_apply m c s

/-- Where entry `(p, q)` of the output tile sits in the result. -/
theorem emb4 (t : Fin cfg0.N) (p q : Fin 1024) (r s : Fin 8192)
    (hr : r.val = win0_4.index t (0 : Fin 2) * 1024 + p.val) (hs : s.val = win0_4.index t (1 : Fin 2) * 1024 + q.val) :
    ((cfg0.win 4).blk t).view.emb (ix2 p q) = (ix2 r s : S8192x8192.Idx) :=
  funext fun a => Fin.ext (by
    match a with
    | ⟨0, _⟩ => show win0_4.index t (0 : Fin 2) * 1024 + 1 * p.val = r.val; omega
    | ⟨1, _⟩ => show win0_4.index t (1 : Fin 2) * 1024 + 1 * q.val = s.val; omega)

end Cert.KernelIdeal.Blocks

end
-- ==== Proof.KernelValue.lean ====
import proofs.«117851_j65481071401189_2_alg».proof.Proof.Gen.KernelIdeal.Value
import proofs.«117851_j65481071401189_2_alg».proof.Proof.Spec
import proofs.«117851_j65481071401189_2_alg».proof.Proof.KernelPiece
import proofs.«117851_j65481071401189_2_alg».proof.Proof.KernelPay
import proofs.«117851_j65481071401189_2_alg».proof.Proof.KernelBlocks
import Idealize.ShloMosaic.Lib.Pipeline.Value
import Idealize.ShloMosaic.Lib.ValueIdx

/-!
# The kernel's result array is the clamped kernel matrix of its two arguments

The grid has 8 × 8 points; point `(I, J)` writes the tile of rows `1024·I …` and columns `1024·J …` of the
result. What it writes at `(p, q)` of the tile depends only on row `1024·I + p` of `x` and row `1024·J + q`
of `y`, and is entry `(1024·I + p, 1024·J + q)` of the clamped kernel matrix. The 64 tiles cover the result,
so the result array ends as that matrix.
-/

noncomputable section

namespace Cert.KernelIdeal.RbfValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- How the block indices of the five windows are related at every grid point: the tile of `x` and its block
    of squared norms move with the output's first block index, the block of squared norms of `y` and the row
    offset into the resident `y` with its second, and the resident `y` never moves. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ ((grid0.coords t) 1).val = win0_4.index t (1 : Fin 2)
    ∧ win0_4.index t (0 : Fin 2) ≤ 7 ∧ win0_4.index t (1 : Fin 2) ≤ 7 :=
  (by decide +kernel : ∀ t : Fin grid0.N, _)

/-- Every one of the 8 × 8 tiles is some grid point's. -/
theorem idx_onto : ∀ (q0 q1 : Fin 8), ∃ t : Fin cfg0.N, win0_4.index t = ![q0.val, q1.val] :=
  (by decide +kernel : ∀ (q0 q1 : Fin 8), ∃ t : Fin grid0.N, win0_4.index t = ![q0.val, q1.val])

/-- The result on core `c`: the clamped kernel matrix of the arguments as launched. -/
abbrev result (c : Dev nD) : S8192x8192.Idx → EReal := Spec.rbfClamped (Blocks.X m c) (Blocks.Y m c)

/-- An entry assembled from the squared norms of row `r` of `x` and row `s` of `y` and from those two rows is
    entry `(r, s)` of the clamped kernel matrix. -/
theorem entry_eq (x y : Spec.SIn.Idx → EReal) (r s : Fin 8192) (u w : EReal) (a b : Fin 256 → EReal)
    (hu : u = Spec.sqnorm x r) (hw : w = Spec.sqnorm y s) (ha : ∀ k, a k = x (ix2 r k)) (hb : ∀ k, b k = y (ix2 s k)) :
    Ideal.exp (Ideal.ofBits .f32 0xBBA3D70A#32
        * max ((u + w) - Ideal.ofBits .f32 0x40000000#32 * ∑ k : Fin 256, a k * b k) (Ideal.ofBits .f32 0x00000000#32))
      = Spec.rbfClampedAt x y r s := by
  subst hu hw
  obtain rfl : a = fun k => x (ix2 r k) := funext ha
  obtain rfl : b = fun k => y (ix2 s k) := funext hb
  rfl

/-- What grid point `t` writes back is its tile of the clamped kernel matrix. -/
theorem flushed_eq (c : Dev nD) (t : Fin cfg0.N) :
    (dats m 0 c).flushed 4 t = ((cfg0.win 4).blk t).view.read (Elt Ideal) (result m c) := by
  rw [Value.flushed4_A, Piece.out_piece]
  obtain ⟨e00, e01, e10, e11, e20, e21, e30, e31, eg, b0, b1⟩ := idx_facts t
  funext j
  obtain ⟨p, q, rfl⟩ : ∃ (p q : Fin 1024), j = (ix2 p q : S1024x1024.Idx) :=
    ⟨j 0, j 1, eq_ix2 (n0 := 1024) (n1 := 1024) j⟩
  obtain ⟨r, hr⟩ : ∃ r : Fin 8192, r.val = win0_4.index t (0 : Fin 2) * 1024 + p.val :=
    ⟨⟨win0_4.index t (0 : Fin 2) * 1024 + p.val, by have := p.isLt; omega⟩, rfl⟩
  obtain ⟨s, hs⟩ : ∃ s : Fin 8192, s.val = win0_4.index t (1 : Fin 2) * 1024 + q.val :=
    ⟨⟨win0_4.index t (1 : Fin 2) * 1024 + q.val, by have := q.isLt; omega⟩, rfl⟩
  have h2 := Blocks.blk2 m c t p r (by omega) e21
  have h3 := Blocks.blk3 m c t q s e30 (by omega)
  have hx : ∀ k : Fin 256, (iblk m c 0 t : S1024x256.Idx → EReal) (ix2 p k) = Blocks.X m c (ix2 r k) :=
    fun k => Blocks.blk0 m c t p k r (by omega) e01
  have hy : ∀ k : Fin 256, Piece.ytile (F := Ideal) (grid0.coords t) (iblk m c 1 t) (ix2 q k) = Blocks.Y m c (ix2 s k) :=
    fun k => (Blocks.ytile_apply (grid0.coords t) (iblk m c 1 t) q k s (by omega)).trans (Blocks.blk1 m c t s k e10 e11)
  show k0_pay1 (F := Ideal) (Piece.ytile (grid0.coords t) (iblk m c 1 t)) (iblk m c 0 t) (iblk m c 2 t) (iblk m c 3 t)
      (ix2 p q) = Spec.rbfClamped (Blocks.X m c) (Blocks.Y m c) (((cfg0.win 4).blk t).view.emb (ix2 p q))
  rw [Blocks.emb4 t p q r s hr hs, Spec.rbfClamped_ix2]
  refine (Pay.pay_apply (Piece.ytile (grid0.coords t) (iblk m c 1 t)) (iblk m c 0 t) (iblk m c 2 t) (iblk m c 3 t) p q).trans ?_
  exact entry_eq (Blocks.X m c) (Blocks.Y m c) r s _ _
    (fun k => (iblk m c 0 t : S1024x256.Idx → EReal) (ix2 p k))
    (fun k => Piece.ytile (F := Ideal) (grid0.coords t) (iblk m c 1 t) (ix2 q k)) h2 h3 hx hy

/-- An index of the result lies in point `t`'s tile iff each coordinate is in the tile's range. -/
theorem mem_blk (t : Fin cfg0.N) (i : S8192x8192.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v9).slice (win0_4.rect t)).set ↔ _
  rw [View.set_slice_whole, Rect.mem_set_unit]
  exact Iff.rfl

/-- Every index of the result is in the tile of the point whose block indices are the two quotients by 1024. -/
theorem cover (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1024 ≤ (i 1).val ∧ (i 1).val < win0_4.index t (1 : Fin 2) * 1024 + 1024
    omega

/-- The result array after the run. -/
theorem final (c : Dev nD) : (dats m 0 c).arrAt 4 cfg0.N = result m c :=
  (dats m 0 c).arrAt_eq_of_cover 4 (result m c) (fun t _ => flushed_eq m c t) cover

/-- The kernel's run: the result array ends as the clamped kernel matrix of the arguments, which are unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.RbfValue

end
-- ==== Proof.RefValue.lean ====
import proofs.«117851_j65481071401189_2_alg».proof.Proof.Gen.ReferenceIdeal.Read
import proofs.«117851_j65481071401189_2_alg».proof.Proof.Spec

/-!
# The reference computes the kernel matrix

Read one operation at a time on the extended reals, entry `(r, s)` of the reference's result is
`exp (γ · ((‖x_r‖² + ‖y_s‖²) − 2 · ⟨x_r, y_s⟩))`: the two sums of squares run along the second axis from the
literal zero, are laid out as a column and as a row and spread over the square; the product contracts the
second axis of both arguments.
-/

noncomputable section

namespace Cert.ReferenceIdeal.RefValue

open Cert.ReferenceIdeal Cert.ReferenceIdeal.Gen Cert.ReferenceIdeal.Read Idealize.ShloMosaic
open Idealize.ShloMosaic.ValueIdx

/-- Row `r` of the first argument is what the first sum of squares reads at `(r, s)`. -/
theorem idx_sq_x (r s : Fin 8192) (k : Fin 256) :
    idx_main_v1 (idx_main_v5 (idx_main_v7 (ix2 r s))) k = ix2 r k :=
  funext fun a => Fin.ext (by match a with | ⟨0, _⟩ => rfl | ⟨1, _⟩ => rfl)

/-- Row `s` of the second argument is what the second sum of squares reads at `(r, s)`. -/
theorem idx_sq_y (r s : Fin 8192) (k : Fin 256) :
    idx_main_v3 (idx_main_v6 (idx_main_v8 (ix2 r s))) k = ix2 s k :=
  funext fun a => Fin.ext (by match a with | ⟨0, _⟩ => rfl | ⟨1, _⟩ => rfl)

theorem idx_dot_l (r s : Fin 8192) (k : Fin 256) : lidx_main_v4 (ix2 r s) k = ix2 r k :=
  funext fun a => Fin.ext (by match a with | ⟨0, _⟩ => rfl | ⟨1, _⟩ => rfl)

theorem idx_dot_r (r s : Fin 8192) (k : Fin 256) : ridx_main_v4 (ix2 r s) k = ix2 s k :=
  funext fun a => Fin.ext (by match a with | ⟨0, _⟩ => rfl | ⟨1, _⟩ => rfl)

/-- The reference's last stage is the kernel matrix of its two arguments. -/
theorem ref_eq (x y : (⟨S8192x256, .f32⟩ : BufTy).Contents (Elt Ideal)) :
    val_main_v15 (F := Ideal) x y = Spec.rbf x y := by
  funext i
  obtain ⟨r, s, rfl⟩ : ∃ (r s : Fin 8192), i = ix2 r s := ⟨i 0, i 1, eq_ix2 i⟩
  rw [Spec.rbf_ix2]
  rw [val_main_v15_apply, val_main_v14_apply, val_main_v13_apply, val_main_cst_2_apply, val_main_v12_apply,
    val_main_v9_apply, val_main_v7_apply, val_main_v5_apply, val_main_v1_apply, val_main_v8_apply, val_main_v6_apply,
    val_main_v3_apply, val_main_v11_apply, val_main_v10_apply, val_main_cst_1_apply, val_main_v4_apply]
  simp only [idx_sq_x, idx_sq_y, idx_dot_l, idx_dot_r, val_main_v0_apply, val_main_v2_apply, val_main_cst_apply,
    val_main_cst_0_apply, Ideal.hostUnary_exp_def, Ideal.mulf_def, Ideal.subf_def, Ideal.addf_def, Ideal.ofBits_def]
  rfl

end Cert.ReferenceIdeal.RefValue

end
-- ==== Proof.lean ====
/-
  The pairwise Gaussian (RBF) kernel matrix `K r s = exp (γ · ‖x_r − y_s‖²)` of the rows of two matrices
  `x, y : [8192, 256]`, with the squared distance expanded as `(‖x_r‖² + ‖y_s‖²) − 2 · ⟨x_r, y_s⟩`.

  The tiled program computes the two vectors of squared norms once, then at each of 8 × 8 grid points takes a
  1024-row tile of `x` and 1024 rows of a resident `y`, multiplies them, forms the expanded squared distance,
  clamps it at zero from below, and applies the exponential. The reference does the same over whole arrays
  without the clamp. On the extended reals every operation is the exact one and changes of number format are the
  identity, so the two results differ only by the clamp — and for matrices of real numbers (which is what the
  precondition says) the expanded squared distance equals `∑ₖ (x_r k − y_s k)²`, a sum of squares, so the clamp
  is the identity (`Cert.Spec.rbfClamped_eq_rbf`).

  * the three frames: the two tiled programs' are the generated frame runs; the reference's is its run with the
    result dropped;
  * the idealized program is the program's own text read on the extended reals (no rewrite was made);
  * the value claim: the tiled program's result array is `Spec.rbfClamped x y` (`Cert.KernelIdeal.RbfValue.run`),
    the reference's is `Spec.rbf x y` (`Cert.ReferenceIdeal.RefValue.ref_eq`), and the two agree on real inputs.
-/
import proofs.«117851_j65481071401189_2_alg».proof.Defs
import proofs.«117851_j65481071401189_2_alg».proof.Proof.Gen.Kernel
import proofs.«117851_j65481071401189_2_alg».proof.Proof.Gen.Kernel.Skeleton
import proofs.«117851_j65481071401189_2_alg».proof.Proof.Gen.Kernel.Launch
import proofs.«117851_j65481071401189_2_alg».proof.Proof.Gen.Kernel.Points
import proofs.«117851_j65481071401189_2_alg».proof.Proof.Gen.Kernel.Frame
import proofs.«117851_j65481071401189_2_alg».proof.Proof.Gen.KernelIdeal
import proofs.«117851_j65481071401189_2_alg».proof.Proof.Gen.KernelIdeal.Skeleton
import proofs.«117851_j65481071401189_2_alg».proof.Proof.Gen.KernelIdeal.Launch
import proofs.«117851_j65481071401189_2_alg».proof.Proof.Gen.KernelIdeal.Points
import proofs.«117851_j65481071401189_2_alg».proof.Proof.Gen.KernelIdeal.Frame
import proofs.«117851_j65481071401189_2_alg».proof.Proof.Gen.ReferenceIdeal
import proofs.«117851_j65481071401189_2_alg».proof.Proof.Gen.Pre_finite_inputs
import proofs.«117851_j65481071401189_2_alg».proof.Proof.Gen.KernelIdeal.Value
import proofs.«117851_j65481071401189_2_alg».proof.Proof.Gen.ReferenceIdeal.Run
import proofs.«117851_j65481071401189_2_alg».proof.Proof.Gen.ReferenceIdeal.Read
import proofs.«117851_j65481071401189_2_alg».proof.Proof.Spec
import proofs.«117851_j65481071401189_2_alg».proof.Proof.Finite
import proofs.«117851_j65481071401189_2_alg».proof.Proof.KernelValue
import proofs.«117851_j65481071401189_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From arguments that agree and are real matrices, the tiled program ends with the clamped kernel matrix and the
    reference with the kernel matrix, and the clamp is the identity on real matrices. -/
theorem algebraic : Cert.algebraic_KernelIdeal_ReferenceIdeal := by
  intro m ρ m' ρ' hpre hagree
  refine ⟨fun c => Cert.KernelIdeal.RbfValue.result m c, Cert.KernelIdeal.RbfValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.ref_eq, (hagree c).1, (hagree c).2]
  obtain ⟨hx, hy⟩ := Cert.Finite.real_of_pre _ _ (hpre c)
  exact (Cert.Spec.rbfClamped_eq_rbf _ _ hx hy).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
